-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1024 : Shape := ⟨2, ![50000, 1024]⟩
abbrev S2x800000 : Shape := ⟨2, ![2, 800000]⟩
abbrev S1024x96 : Shape := ⟨2, ![1024, 96]⟩
abbrev S96 : Shape := ⟨1, ![96]⟩
abbrev S96x40 : Shape := ⟨2, ![96, 40]⟩
abbrev S40 : Shape := ⟨1, ![40]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S1024x96 : S_.BroadcastsInDim S1024x96 (![] : Fin 0 → Fin S1024x96.rank)
  reducesTo_S1024x96_S_d0_1 : S1024x96.ReducesTo [0, 1] S_
  bcast_S_S96 : S_.BroadcastsInDim S96 (![] : Fin 0 → Fin S96.rank)
  reducesTo_S96_S_d0 : S96.ReducesTo [0] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S96x40 1) : IVec S_ 1 :=
  let main_c_5 : IVec S_ 1 := constantI S_ 1 1#1
  let main_v17 : IVec S_ 1 := (fun x v => Host.reduce IntOp.andi x v reducesTo_S96x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x1024 .f32) (main_arg1 : IVec S2x800000 32) (main_arg2 : FVec F S1024x96 .f32) (main_arg3 : FVec F S96 .f32) (main_arg4 : FVec F S96x40 .f32) (main_arg5 : FVec F S40 .f32) : IVec S_ 1 :=
  let main_v0 : FVec F S50000x1024 .f32 := Host.absf main_arg0
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S1024x96 .f32 := Host.absf main_arg2
  let main_cst_0 : FVec F S_ .f32 := constant S_ .f32 0x7F800000#32
  let main_v5 : FVec F S1024x96 .f32 := broadcastInDim S1024x96 ![] bcast_S_S1024x96 main_cst_0
  let main_v6 : IVec S1024x96 1 := cmpf .olt main_v4 main_v5
  let main_c_1 : IVec S_ 1 := constantI S_ 1 1#1
  let main_v7 : IVec S_ 1 := (fun x v => Host.reduce IntOp.andi x v reducesTo_S1024x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x40 .f32 := Host.absf main_arg4
  let main_cst_4 : FVec F S_ .f32 := constant S_ .f32 0x7F800000#32
  let main_v15 : FVec F S96x40 .f32 := broadcastInDim S96x40 ![] bcast_S_S96x40 main_cst_4
  let main_v16 : IVec S96x40 1 := cmpf .olt main_v14 main_v15
  fn_part1 (F := F) main_arg5 main_v13 main_v16
-- ==== Kernel.lean ====
abbrev S50000x1024 : Shape := ⟨2, ![50000, 1024]⟩
abbrev S2x800000 : Shape := ⟨2, ![2, 800000]⟩
abbrev S1024x96 : Shape := ⟨2, ![1024, 96]⟩
abbrev S96 : Shape := ⟨1, ![96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S2000x1024 : Shape := ⟨2, ![2000, 1024]⟩
abbrev S2000x96 : Shape := ⟨2, ![2000, 96]⟩
abbrev S850000x96 : Shape := ⟨2, ![850000, 96]⟩
abbrev S1x96 : Shape := ⟨2, ![1, 96]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩

abbrev nBuf : Space → Nat
  | .hbm => 89
  | .vmem => 10
  | .smem => 0
  | _ => 0

abbrev bufTy : (tb : Table) → Fin (tcTables nBuf tb) → BufTy
  | .hbm, ⟨0, _⟩ => ⟨S50000x1024, .f32⟩
  | .hbm, ⟨1, _⟩ => ⟨S2x800000, .i32⟩
  | .hbm, ⟨2, _⟩ => ⟨S1024x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x96, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x96, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | .hbm, ⟨69, _⟩ => ⟨S50000x40, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x40, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | .local _ .vmem, ⟨0, _⟩ => ⟨S2000x1024, .f32⟩
  | .local _ .vmem, ⟨1, _⟩ => ⟨S2000x1024, .f32⟩
  | .local _ .vmem, ⟨2, _⟩ => ⟨S1024x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S96x40, .f32⟩
  | .local _ .vmem, ⟨8, _⟩ => ⟨S2000x40, .f32⟩
  | .local _ .vmem, ⟨9, _⟩ => ⟨S2000x40, .f32⟩
  | _, _ => ⟨S50000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x96_S1024x96_0_0 : ∀ a, (![0, 0] : Fin 2 → Nat) a + S1024x96.size a ≤ S1024x96.size a
  h_S1024x96 : 0 < S1024x96.numel
  inb_S2000x96_S2000x96_0_0 : ∀ a, (![0, 0] : Fin 2 → Nat) a + S2000x96.size a ≤ S2000x96.size a
  h_S2000x96 : 0 < S2000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S2000x96_S2000x96 : S2000x96.ShapeCasts S2000x96
  inb_S96x40_S96x40_0_0 : ∀ a, (![0, 0] : Fin 2 → Nat) a + S96x40.size a ≤ S96x40.size a
  h_S96x40 : 0 < S96x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x1024_S1024x96_S2000x96_1_0_0_1_n_n_wf : DotDims.WF S2000x1024 S1024x96 S2000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S2000x96_S96x40_S2000x40_1_0_0_1_n_n_wf : DotDims.WF S2000x96 S96x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S50000x1024.size a
  hwx0_0 : ∀ i : grid0.Coords, EltTy.bits .f32 = 32 ∨ (Rect.block (s := S50000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x96.size a ≤ S1024x96.size a
  hwx0_1 : ∀ i : grid0.Coords, EltTy.bits .f32 = 32 ∨ (Rect.block (s := S1024x96) S1024x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x40.size a ≤ S96x40.size a
  hwx1_1 : ∀ i : grid1.Coords, EltTy.bits .f32 = 32 ∨ (Rect.block (s := S96x40) S96x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S50000x40.size a
  hwx1_2 : ∀ i : grid1.Coords, EltTy.bits .f32 = 32 ∨ (Rect.block (s := S50000x40) S2000x40.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x1024_S1024x96_S2000x96_1_0_0_1_n_n : DotDims S2000x1024 S1024x96 S2000x96 where
  lhsContracting := [1]
  rhsContracting := [0]
  lhsNonContracting := [0]
  rhsNonContracting := [1]
  lhsBatch := []
  rhsBatch := []
  wf := dot_S2000x1024_S1024x96_S2000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S2000x96_S96x40_S2000x40_1_0_0_1_n_n : DotDims S2000x96 S96x40 S2000x40 where
  lhsContracting := [1]
  rhsContracting := [0]
  lhsNonContracting := [0]
  rhsNonContracting := [1]
  lhsBatch := []
  rhsBatch := []
  wf := dot_S2000x96_S96x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x1024 : Shape := ⟨2, ![50000, 1024]⟩
abbrev S2x800000 : Shape := ⟨2, ![2, 800000]⟩
abbrev S1024x96 : Shape := ⟨2, ![1024, 96]⟩
abbrev S96 : Shape := ⟨1, ![96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x96 : Shape := ⟨2, ![50000, 96]⟩
abbrev S_ : Shape := ⟨0, ![]⟩
abbrev S850000x1 : Shape := ⟨2, ![850000, 1]⟩
abbrev S850000x96 : Shape := ⟨2, ![850000, 96]⟩
abbrev S1x96 : Shape := ⟨2, ![1, 96]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 122
  | .vmem => 0
  | .smem => 0
  | _ => 0

abbrev bufTy : (tb : Table) → Fin (tcTables nBuf tb) → BufTy
  | .hbm, ⟨0, _⟩ => ⟨S50000x1024, .f32⟩
  | .hbm, ⟨1, _⟩ => ⟨S2x800000, .i32⟩
  | .hbm, ⟨2, _⟩ => ⟨S1024x96, .f32⟩
  | .hbm, ⟨3, _⟩ => ⟨S96, .f32⟩
  | .hbm, ⟨4, _⟩ => ⟨S96x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x96, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x96, .f32⟩
  | .hbm, ⟨57, _⟩ => ⟨S850000x96, .f32⟩
  | .hbm, ⟨58, _⟩ => ⟨S850000x96, .f32⟩
  | .hbm, ⟨59, _⟩ => ⟨S_, .f32⟩
  | .hbm, ⟨60, _⟩ => ⟨S50000x96, .f32⟩
  | .hbm, ⟨61, _⟩ => ⟨S850000x1, .i32⟩
  | .hbm, ⟨62, _⟩ => ⟨S50000x96, .f32⟩
  | .hbm, ⟨63, _⟩ => ⟨S1x96, .f32⟩
  | .hbm, ⟨64, _⟩ => ⟨S50000x96, .f32⟩
  | .hbm, ⟨65, _⟩ => ⟨S50000x96, .f32⟩
  | .hbm, ⟨66, _⟩ => ⟨S_, .f32⟩
  | .hbm, ⟨67, _⟩ => ⟨S50000x96, .f32⟩
  | .hbm, ⟨68, _⟩ => ⟨S50000x96, .f32⟩
  | .hbm, ⟨69, _⟩ => ⟨S50000x40, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S850000x1, .f32⟩
  | .hbm, ⟨104, _⟩ => ⟨S_, .i32⟩
  | .hbm, ⟨105, _⟩ => ⟨S850000, .i32⟩
  | .hbm, ⟨106, _⟩ => ⟨S850000, .i1⟩
  | .hbm, ⟨107, _⟩ => ⟨S_, .i32⟩
  | .hbm, ⟨108, _⟩ => ⟨S850000, .i32⟩
  | .hbm, ⟨109, _⟩ => ⟨S850000, .i32⟩
  | .hbm, ⟨110, _⟩ => ⟨S850000, .i32⟩
  | .hbm, ⟨111, _⟩ => ⟨S850000x1, .i32⟩
  | .hbm, ⟨112, _⟩ => ⟨S850000x40, .f32⟩
  | .hbm, ⟨113, _⟩ => ⟨S850000x40, .f32⟩
  | .hbm, ⟨114, _⟩ => ⟨S850000x40, .f32⟩
  | .hbm, ⟨115, _⟩ => ⟨S_, .f32⟩
  | .hbm, ⟨116, _⟩ => ⟨S50000x40, .f32⟩
  | .hbm, ⟨117, _⟩ => ⟨S850000x1, .i32⟩
  | .hbm, ⟨118, _⟩ => ⟨S50000x40, .f32⟩
  | .hbm, ⟨119, _⟩ => ⟨S1x40, .f32⟩
  | .hbm, ⟨120, _⟩ => ⟨S50000x40, .f32⟩
  | .hbm, ⟨121, _⟩ => ⟨S50000x40, .f32⟩
  | _, _ => ⟨S50000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_c_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x1024_S1024x96_S50000x96_1_0_0_1_n_n_wf : DotDims.WF S50000x1024 S1024x96 S50000x96 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x40_S50000x40_1_0_0_1_n_n_wf : DotDims.WF S50000x96 S96x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x1024_S1024x96_S50000x96_1_0_0_1_n_n : DotDims S50000x1024 S1024x96 S50000x96 where
  lhsContracting := [1]
  rhsContracting := [0]
  lhsNonContracting := [0]
  rhsNonContracting := [1]
  lhsBatch := []
  rhsBatch := []
  wf := dot_S50000x1024_S1024x96_S50000x96_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run with its result named.

  @main is eight segments: three stretches of host operations, the first product's region, two more stretches,
  the second product's region, and a last stretch. The generated frame proves that every weakly fair execution of
  @main ends, without a fault, in a state whose unscoped buffers hold, on every core, the contents `W8` — the fold
  of the segments over the launch memory — and then reads only the six argument buffers out of that state. Here the
  same run is read once more, at the result buffer `main_v64` as well: the result ends at `W8` of that buffer, and
  the arguments end as launched. What `W8` holds there is the subject of the other modules.
-/
import proofs.«108142_j39977555591218_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents `W8` and the argument buffers as launched: the segments' run, its last thread state read
    against the final state at seven buffers. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Whole

end
-- ==== Proof.Spec.lean ====
/-
  The two-layer graph convolution as ONE function of the six argument arrays, at any float values.

  The graph has 50000 nodes and 800000 edges given as two rows of node numbers (row 0 the sources, row 1 the
  targets); every node also gets a self-loop, so there are 850000 edges in all. With deg(v) the number of edges into
  v, the weight of an edge s → d is deg(s)^(-1/2) · deg(d)^(-1/2) (the inverse square root read as 0 where the degree
  is not positive). One layer takes node features Z (already multiplied by the layer's weight matrix) to
      out(v) = Σ over edges s → v of weight(s → v) · Z(s)  +  bias,
  computed as a gather of Z's rows at the sources, a product with the edge weights, and a scatter-add into the
  targets. The network is  layer₂(relu(layer₁(X · W1)) · W2).

  Both printed programs compute exactly this with the same host operations — index handling, the degree count,
  gathers, scatter-adds and broadcasts are literally the same lines — and differ only in how the two matrix
  products are obtained. So the definitions below spell those shared lines once, with the products `X · W1` and
  `H · W2` as the host's `dot_general`; nothing here is ever unfolded except to compare it, term against term,
  with a program's own composed value.
-/
import proofs.«108142_j39977555591218_1_alg».proof.ReferenceIdeal
import proofs.«108142_j39977555591218_1_alg».proof.Proof.Gen.ReferenceIdeal

noncomputable section

namespace Cert.Gcn

open Cert.ReferenceIdeal Cert.ReferenceIdeal.Gen Idealize.ShloMosaic

variable {F : FTy → Type} [FloatOps F]

/-- The node numbers 0 … 49999: the self-loops' endpoints. -/
def nodes : (⟨S50000, .i32⟩ : BufTy).Contents (Elt F) :=
  iotaInDim S50000 32 0

/-- The edges' sources: row 0 of the edge list, then the self-loops. -/
def sources (ei : (⟨S2x800000, .i32⟩ : BufTy).Contents (Elt F)) : (⟨S850000, .i32⟩ : BufTy).Contents (Elt F) :=
  concatenate S850000 0 [⟨S800000, shapeCast S800000 (extractStridedSlice S1x800000 ![0, 0] ei slices_S2x800000_S1x800000_0_0) shapeCasts_S1x800000_S800000⟩, ⟨S50000, nodes (F := F)⟩] concatenates_S800000_S50000_S850000_d0

/-- The edges' targets: row 1 of the edge list, then the self-loops. -/
def targets (ei : (⟨S2x800000, .i32⟩ : BufTy).Contents (Elt F)) : (⟨S850000, .i32⟩ : BufTy).Contents (Elt F) :=
  concatenate S850000 0 [⟨S800000, shapeCast S800000 (extractStridedSlice S1x800000 ![1, 0] ei slices_S2x800000_S1x800000_1_0) shapeCasts_S1x800000_S800000⟩, ⟨S50000, nodes (F := F)⟩] concatenates_S800000_S50000_S850000_d0

/-- A negative node number counts from the end (array indexing's convention): n < 0 reads as n + 50000. As the
    column of start indices a gather takes. -/
def wrapped (ix : (⟨S850000, .i32⟩ : BufTy).Contents (Elt F)) : (⟨S850000x1, .i32⟩ : BufTy).Contents (Elt F) :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- The in-degree of every node, self-loops included: a one per edge, added up at the edge's target. -/
def degree (ei : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (targets ei))
    (broadcastInDim S850000 ![] bcast_S_S850000 (constant S_ .f32 0x3F800000#32))

/-- Where the degree is positive. -/
def positiveDegree (ei : (⟨S2x800000, .i32⟩ : BufTy).Contents (Elt F)) : (⟨S50000, .i1⟩ : BufTy).Contents (Elt F) :=
  cmpf (F := F) .ogt (degree ei) (broadcastInDim S50000 ![] bcast_S_S50000 (constant S_ .f32 0x00000000#32))

/-- The inverse square root of the degree, as the host computes it at every node. -/
def rsqrtDegree (ei : (⟨S2x800000, .i32⟩ : BufTy).Contents (Elt F)) : (⟨S50000, .f32⟩ : BufTy).Contents (Elt F) :=
  Host.rsqrt (degree ei)

/-- The scalar 0. -/
def zeroScalar : (⟨S_, .f32⟩ : BufTy).Contents (Elt F) :=
  constant S_ .f32 0x00000000#32

/-- deg^(-1/2) where the degree is positive, 0 elsewhere. -/
def invSqrtDegree (ei : (⟨S2x800000, .i32⟩ : BufTy).Contents (Elt F)) : (⟨S50000, .f32⟩ : BufTy).Contents (Elt F) :=
  select (positiveDegree ei) (rsqrtDegree ei)
    (broadcastInDim S50000 ![] bcast_S_S50000 (id (zeroScalar (F := F))))

/-- Per-edge weights from a per-node factor `d` and the edges' endpoints: d(source) · d(target). -/
def weightsOf (d : (⟨S50000, .f32⟩ : BufTy).Contents (Elt F)) (s t : (⟨S850000, .i32⟩ : BufTy).Contents (Elt F)) :
    (⟨S850000, .f32⟩ : BufTy).Contents (Elt F) :=
  mulf (Host.gather gather_S50000_S850000x1_S850000_n_0_n_n_0_1_1 d (wrapped s))
    (Host.gather gather_S50000_S850000x1_S850000_n_0_n_n_0_1_1 d (wrapped t))

/-- The weight of every edge: deg(source)^(-1/2) · deg(target)^(-1/2). -/
def edgeWeight (ei : (⟨S2x800000, .i32⟩ : BufTy).Contents (Elt F)) : (⟨S850000, .f32⟩ : BufTy).Contents (Elt F) :=
  weightsOf (invSqrtDegree ei) (sources ei) (targets ei)

/-- The first layer's aggregation of 96-wide node features `z`: every node gets the weighted sum of `z` over the
    sources of its incoming edges, plus the bias. -/
def aggregate96 (ei : (⟨S2x800000, .i32⟩ : BufTy).Contents (Elt F)) (z : (⟨S50000x96, .f32⟩ : BufTy).Contents (Elt F))
    (b : (⟨S96, .f32⟩ : BufTy).Contents (Elt F)) : (⟨S50000x96, .f32⟩ : BufTy).Contents (Elt F) :=
  addf
    (Host.scatterAdd scatter_S50000x96_S850000x1_S850000x96_1_0_0_1
      (broadcastInDim S50000x96 ![] bcast_S_S50000x96 (constant S_ .f32 0x00000000#32))
      (broadcastInDim S850000x1 ![0] bcast_S850000_S850000x1_0 (targets ei))
      (mulf (broadcastInDim S850000x96 ![0, 1] bcast_S850000x1_S850000x96_0_1 (broadcastInDim S850000x1 ![0] bcast_S850000_S850000x1_0 (edgeWeight ei)))
        (Host.gather gather_S50000x96_S850000x1_S850000x96_1_0_n_n_0_1_196 z (wrapped (sources ei)))))
    (broadcastInDim S50000x96 ![0, 1] bcast_S1x96_S50000x96_0_1 (broadcastInDim S1x96 ![1] bcast_S96_S1x96_1 b))

/-- max(·, 0), entry by entry. -/
def relu96 (z : (⟨S50000x96, .f32⟩ : BufTy).Contents (Elt F)) : (⟨S50000x96, .f32⟩ : BufTy).Contents (Elt F) :=
  maximumf z (broadcastInDim S50000x96 ![] bcast_S_S50000x96 (constant S_ .f32 0x00000000#32))

/-- The second layer's aggregation, of 40-wide node features. -/
def aggregate40 (ei : (⟨S2x800000, .i32⟩ : BufTy).Contents (Elt F)) (z : (⟨S50000x40, .f32⟩ : BufTy).Contents (Elt F))
    (b : (⟨S40, .f32⟩ : BufTy).Contents (Elt F)) : (⟨S50000x40, .f32⟩ : BufTy).Contents (Elt F) :=
  addf
    (Host.scatterAdd scatter_S50000x40_S850000x1_S850000x40_1_0_0_1
      (broadcastInDim S50000x40 ![] bcast_S_S50000x40 (constant S_ .f32 0x00000000#32))
      (broadcastInDim S850000x1 ![0] bcast_S850000_S850000x1_0 (targets ei))
      (mulf (broadcastInDim S850000x40 ![0, 1] bcast_S850000x1_S850000x40_0_1 (broadcastInDim S850000x1 ![0] bcast_S850000_S850000x1_0 (edgeWeight ei)))
        (Host.gather gather_S50000x40_S850000x1_S850000x40_1_0_n_n_0_1_140 z (wrapped (sources ei)))))
    (broadcastInDim S50000x40 ![0, 1] bcast_S1x40_S50000x40_0_1 (broadcastInDim S1x40 ![1] bcast_S40_S1x40_1 b))

/-- X · W1, as the host's `dot_general`. -/
def product1 (x : (⟨S50000x1024, .f32⟩ : BufTy).Contents (Elt F)) (w1 : (⟨S1024x96, .f32⟩ : BufTy).Contents (Elt F)) :
    (⟨S50000x96, .f32⟩ : BufTy).Contents (Elt F) :=
  Host.dotGeneral dot_S50000x1024_S1024x96_S50000x96_1_0_0_1_n_n none x w1

/-- H · W2, as the host's `dot_general`. -/
def product2 (h : (⟨S50000x96, .f32⟩ : BufTy).Contents (Elt F)) (w2 : (⟨S96x40, .f32⟩ : BufTy).Contents (Elt F)) :
    (⟨S50000x40, .f32⟩ : BufTy).Contents (Elt F) :=
  Host.dotGeneral dot_S50000x96_S96x40_S50000x40_1_0_0_1_n_n none h w2

/-- The hidden layer: relu of the first aggregation of X · W1. -/
def hidden (x : (⟨S50000x1024, .f32⟩ : BufTy).Contents (Elt F)) (ei : (⟨S2x800000, .i32⟩ : BufTy).Contents (Elt F))
    (w1 : (⟨S1024x96, .f32⟩ : BufTy).Contents (Elt F)) (b1 : (⟨S96, .f32⟩ : BufTy).Contents (Elt F)) :
    (⟨S50000x96, .f32⟩ : BufTy).Contents (Elt F) :=
  relu96 (aggregate96 ei (product1 x w1) b1)

/-- The network's output: the second aggregation of H · W2. -/
def network (x : (⟨S50000x1024, .f32⟩ : BufTy).Contents (Elt F)) (ei : (⟨S2x800000, .i32⟩ : BufTy).Contents (Elt F))
    (w1 : (⟨S1024x96, .f32⟩ : BufTy).Contents (Elt F)) (b1 : (⟨S96, .f32⟩ : BufTy).Contents (Elt F))
    (w2 : (⟨S96x40, .f32⟩ : BufTy).Contents (Elt F)) (b2 : (⟨S40, .f32⟩ : BufTy).Contents (Elt F)) :
    (⟨S50000x40, .f32⟩ : BufTy).Contents (Elt F) :=
  aggregate40 ei (product2 (hidden x ei w1 b1) w2) b2

end Cert.Gcn

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainProduct.lean ====
/-
  The plain product of two matrices as a whole array, at the ideal values.

  `plainProduct L R` is the [A, B] array whose entry (p, e) is Σ_k L(p, k) · R(k, e), for an [A, K] array L and a
  [K, B] array R of extended reals. The host's `dot_general` with the dimension numbers of an ordinary product
  (contract L's columns with R's rows, no batch axis) is that array, and so is — entry by entry — a `tpu.matmul` with
  those dimension numbers into the zero accumulator. The two facts together say that a kernel's matrix unit and the
  host's `dot_general` compute one function on ideal values.
-/
import Idealize.ShloMosaic.PureOps.Ideal.Laws
import Idealize.ShloMosaic.Lib.ValueIdx
import proofs.«108142_j39977555591218_1_alg».proof.Proof.LibPlainMatmul

noncomputable section

namespace Idealize.ShloMosaic.ValueIdx

open Idealize.ShloMosaic

/-- Entry (p, e) is Σ_k L(p, k) · R(k, e). -/
def plainProduct {A K B : Nat} {φ₁ φ₂ : FTy} (L : FVec Ideal ⟨2, ![A, K]⟩ φ₁) (R : FVec Ideal ⟨2, ![K, B]⟩ φ₂) :
    FVec Ideal ⟨2, ![A, B]⟩ .f32 :=
  fun i => ∑ k : Fin K, L (ix2 (i 0) k) * R (ix2 k (i 1))

/-- The plain product at any index of its shape, by that index's coordinates. -/
theorem plainProduct_index {A K B : Nat} {φ₁ φ₂ : FTy} (L : FVec Ideal ⟨2, ![A, K]⟩ φ₁) (R : FVec Ideal ⟨2, ![K, B]⟩ φ₂)
    (i : (⟨2, ![A, B]⟩ : Shape).Idx) : plainProduct L R i = ∑ k : Fin K, L (ix2 (i 0) k) * R (ix2 k (i 1)) := rfl

theorem plainProduct_apply {A K B : Nat} {φ₁ φ₂ : FTy} (L : FVec Ideal ⟨2, ![A, K]⟩ φ₁) (R : FVec Ideal ⟨2, ![K, B]⟩ φ₂)
    (p : Fin A) (e : Fin B) : plainProduct L R (ix2 p e) = ∑ k : Fin K, L (ix2 p k) * R (ix2 k e) := rfl

/-- The host's `dot_general` of an ordinary product, read at (p, e): Σ_k L(p, k) · R(k, e). -/
theorem dotGeneral_plain_apply (A K B : Nat) {φ₁ φ₂ : FTy} (prec : Option ContractPrecision)
    (L : FVec Ideal ⟨2, ![A, K]⟩ φ₁) (R : FVec Ideal ⟨2, ![K, B]⟩ φ₂) (p : Fin A) (e : Fin B) :
    Host.dotGeneral (DotDims.plain A K B) prec L R (ix2 p e) = ∑ k : Fin K, L (ix2 p k) * R (ix2 k e) := by
  show FloatOps.dotGeneral _ prec _ L R (ix2 p e) = _
  rw [Ideal.dotGeneral_apply, ← Equiv.sum_comp (contrEquiv1 (DotDims.plain A K B) K rfl rfl).symm]
  refine Finset.sum_congr rfl fun k _ => ?_
  rw [plain_lhsIdx, plain_rhsIdx]

/-- The host's `dot_general` of an ordinary product IS the plain product. -/
theorem dotGeneral_plain_eq (A K B : Nat) {φ₁ φ₂ : FTy} (prec : Option ContractPrecision)
    (L : FVec Ideal ⟨2, ![A, K]⟩ φ₁) (R : FVec Ideal ⟨2, ![K, B]⟩ φ₂) :
    Host.dotGeneral (DotDims.plain A K B) prec L R = plainProduct L R :=
  funext fun i => by
    rw [eq_ix2 i]
    exact (dotGeneral_plain_apply A K B prec L R (i 0) (i 1)).trans (plainProduct_apply L R (i 0) (i 1)).symm

end Idealize.ShloMosaic.ValueIdx

end
-- ==== Proof.RegionProducts.lean ====
/-
  What the two Pallas regions leave in their output arrays, at the ideal values.

  Each region is a grid of 25 points. At point `t` the body loads rows [2000·t, 2000·t + 2000) of its left operand
  (all columns) and the whole right operand, multiplies them into a zero accumulator — the change of float format in
  front of the product is the identity on ideal values, and so is the cast of a shape to itself — and stores the
  2000-row block of products, which the pipeline writes back as rows [2000·t, 2000·t + 2000) of the output array.
  Entry (q, e) of that block is Σ_k L(2000·t + q, k) · R(k, e): a plain product read at an entry, with the block's
  rows re-based. The 25 row blocks tile the 50000 rows, so the output array ends holding, at every (p, e),
  Σ_k L(p, k) · R(k, e) of the arrays the region was entered with — whatever those are (`V`).
-/
import proofs.«108142_j39977555591218_1_alg».proof.Proof.Gen.KernelIdeal.Frame
import proofs.«108142_j39977555591218_1_alg».proof.Proof.LibPlainMatmul
import proofs.«108142_j39977555591218_1_alg».proof.Proof.LibPlainProduct
import Idealize.ShloMosaic.Lib.Pipeline.Value
import Idealize.ShloMosaic.Lib.ValueIdx
import Idealize.ShloMosaic.PureOps.Ideal.Laws

set_option maxRecDepth 16384

noncomputable section

namespace Cert.KernelIdeal.Products

open Cert.KernelIdeal Cert.KernelIdeal.Gen
open Idealize.ShloMosaic Idealize.ShloMosaic.TcCoe Idealize.ShloMosaic.ValueIdx Idealize.SL.Sem
open Idealize.ShloMosaic.Pipeline (Dat)

/-- The stores' offsets, both zero. -/
theorem zero_offsets : (![0, 0] : Fin 2 → Nat) = fun _ => 0 := funext fun a => by fin_cases a <;> rfl

/-! ## The bodies' products, entry by entry -/

/-- The first region's stored block: entry (q, e) is Σ_k x(q, k) · w(k, e) of the loaded blocks. -/
theorem product0_entry (x : Vec Ideal S2000x1024 .f32) (w : Vec Ideal S1024x96 .f32) (q : Fin 2000) (e : Fin 96) :
    k0_pay1 x w (ix2 q e) = ∑ k : Fin 1024, x (ix2 q k) * w (ix2 k e) := by
  unfold k0_pay1
  exact matmul_plain_zero_apply 2000 1024 96 none x w q e

/-- The second region's: entry (q, e) is Σ_k h(q, k) · w(k, e). -/
theorem product1_entry (h : Vec Ideal S2000x96 .f32) (w : Vec Ideal S96x40 .f32) (q : Fin 2000) (e : Fin 40) :
    k1_pay1 h w (ix2 q e) = ∑ k : Fin 96, h (ix2 q k) * w (ix2 k e) := by
  unfold k1_pay1
  rw [shapeCast_self]
  exact matmul_plain_zero_apply 2000 96 40 none h w q e

/-! ## Region 0: the output array is the whole product of the arrays the region was entered with -/

section Region0

variable (V : (c : Dev nD) → (b : Ref sig .tc) → Buf (Elt Ideal) ((c : Thread nD τ).loc b))

/-- Σ_k L(p, k) · R(k, e) of region 0's two input arrays as the region finds them, at every (p, e). -/
def whole0 (c : Dev nD) : FVec Ideal S50000x96 .f32 :=
  plainProduct (A := 50000) (K := 1024) (B := 96) (φ₁ := .f32) (φ₂ := .f32) (V c main_arg0) (V c main_arg2)

/-- The stored block at any index of the block, by coordinates. -/
theorem product0_at (x : Vec Ideal S2000x1024 .f32) (w : Vec Ideal S1024x96 .f32) (j : S2000x96.Idx) :
    k0_pay1 x w j = ∑ k : Fin 1024, x (ix2 (j 0) k) * w (ix2 k (j 1)) :=
  (congrArg (k0_pay1 x w) (eq_ix2 j)).trans (product0_entry x w (j 0) (j 1))

/-- The printed index maps over the grid: the left operand's and the output's row blocks move together with the point,
    on the column axis every block index is zero, and the right operand is always its one whole block. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the whole product. -/
theorem flushed0 (c : Dev nD) (t : Fin cfg0.N) :
    (dat0 V c).flushed 2 t = ((cfg0.win 2).blk t).view.read (Elt Ideal) (whole0 V c) := by
  show (cfg0.win 2).cut (grid0.coords t) ((dat0 V c).after 2 t) = _
  rw [after0_2]
  unfold out0_2
  rw [View.canon_unit_zero zero_offsets]
  simp only [View.ld_unit_zero (S := S2000x1024) zero_offsets, View.ld_unit_zero (S := S1024x96) zero_offsets]
  obtain ⟨e0, e1, e2, e3, e4, e5⟩ := index_facts0 t
  funext j
  show k0_pay1 (iblk0 V c 0 t) (iblk0 V c 1 t) j = whole0 V c (((cfg0.win 2).blk t).view.emb j)
  refine (product0_at (iblk0 V c 0 t) (iblk0 V c 1 t) j).trans ?_
  unfold whole0
  rw [plainProduct_index]
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 1024 + 1 * k.val = k.val; omega
  have hw : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) ?_
    funext a; apply Fin.ext
    match a with
    | ⟨0, _⟩ => show win0_1.index t (0 : Fin 2) * 1024 + 1 * k.val = k.val; omega
    | ⟨1, _⟩ => show win0_1.index t (1 : Fin 2) * 96 + 1 * (j 1).val = win0_2.index t (1 : Fin 2) * 96 + 1 * (j 1).val; omega
  rw [hx, hw]

/-- An index of the output array is in point `t`'s block iff each coordinate is in the block's range on its axis. -/
theorem mem_block0 (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v30).slice (win0_2.rect t)).set ↔ _
  rw [View.set_slice_whole, Rect.mem_set_unit]
  exact Iff.rfl

/-- Row p lies in the block of point p / 2000: the 25 row blocks tile the array. -/
theorem cover0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have ht : (i 0).val / 2000 < cfg0.N := by show _ < grid0.N; rw [N_0]; omega
  refine ⟨⟨(i 0).val / 2000, ht⟩, flush0_2 _, ?_⟩
  rw [mem_block0]
  obtain ⟨-, -, -, -, e4, e5⟩ := index_facts0 ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e5]; show (i 0).val / 2000 * 2000 ≤ (i 0).val ∧ (i 0).val < (i 0).val / 2000 * 2000 + 2000; omega
  | ⟨1, _⟩ =>
    show win0_2.index ⟨(i 0).val / 2000, ht⟩ (1 : Fin 2) * 96 ≤ (i 1).val ∧ (i 1).val < win0_2.index ⟨(i 0).val / 2000, ht⟩ (1 : Fin 2) * 96 + 96
    rw [e4]; omega

/-- The output array after the region: the whole product. -/
theorem array0 (c : Dev nD) : (dat0 V c).arrAt 2 cfg0.N = whole0 V c :=
  (dat0 V c).arrAt_eq_of_cover 2 (whole0 V c) (fun t _ => flushed0 V c t) (cover0)

end Region0

/-! ## Region 1: the output array is the whole product of the arrays the region was entered with -/

section Region1

variable (V : (c : Dev nD) → (b : Ref sig .tc) → Buf (Elt Ideal) ((c : Thread nD τ).loc b))

/-- Σ_k L(p, k) · R(k, e) of region 1's two input arrays as the region finds them, at every (p, e). -/
def whole1 (c : Dev nD) : FVec Ideal S50000x40 .f32 :=
  plainProduct (A := 50000) (K := 96) (B := 40) (φ₁ := .f32) (φ₂ := .f32) (V c main_v47) (V c main_arg4)

/-- The stored block at any index of the block, by coordinates. -/
theorem product1_at (x : Vec Ideal S2000x96 .f32) (w : Vec Ideal S96x40 .f32) (j : S2000x40.Idx) :
    k1_pay1 x w j = ∑ k : Fin 96, x (ix2 (j 0) k) * w (ix2 k (j 1)) :=
  (congrArg (k1_pay1 x w) (eq_ix2 j)).trans (product1_entry x w (j 0) (j 1))

/-- The printed index maps over the grid: the left operand's and the output's row blocks move together with the point,
    on the column axis every block index is zero, and the right operand is always its one whole block. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is block `t` of the whole product. -/
theorem flushed1 (c : Dev nD) (t : Fin cfg1.N) :
    (dat1 V c).flushed 2 t = ((cfg1.win 2).blk t).view.read (Elt Ideal) (whole1 V c) := by
  show (cfg1.win 2).cut (grid1.coords t) ((dat1 V c).after 2 t) = _
  rw [after1_2]
  unfold out1_2
  rw [View.canon_unit_zero zero_offsets]
  simp only [View.ld_unit_zero (S := S2000x96) zero_offsets, View.ld_unit_zero (S := S96x40) zero_offsets]
  obtain ⟨e0, e1, e2, e3, e4, e5⟩ := index_facts1 t
  funext j
  show k1_pay1 (iblk1 V c 0 t) (iblk1 V c 1 t) j = whole1 V c (((cfg1.win 2).blk t).view.emb j)
  refine (product1_at (iblk1 V c 0 t) (iblk1 V c 1 t) j).trans ?_
  unfold whole1
  rw [plainProduct_index]
  refine Finset.sum_congr rfl fun k _ => ?_
  have hx : iblk1 V c 0 t (ix2 (j 0) k) = V c main_v47 (ix2 ((((cfg1.win 2).blk t).view.emb j) 0) k) := by
    show V c main_v47 (((cfg1.win 0).blk t).view.emb (ix2 (j 0) k)) = _
    refine congrArg (V c main_v47) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 96 + 1 * k.val = k.val; omega
  have hw : iblk1 V c 1 t (ix2 k (j 1)) = V c main_arg4 (ix2 k ((((cfg1.win 2).blk t).view.emb j) 1)) := by
    show V c main_arg4 (((cfg1.win 1).blk t).view.emb (ix2 k (j 1))) = _
    refine congrArg (V c main_arg4) ?_
    funext a; apply Fin.ext
    match a with
    | ⟨0, _⟩ => show win1_1.index t (0 : Fin 2) * 96 + 1 * k.val = k.val; omega
    | ⟨1, _⟩ => show win1_1.index t (1 : Fin 2) * 40 + 1 * (j 1).val = win1_2.index t (1 : Fin 2) * 40 + 1 * (j 1).val; omega
  rw [hx, hw]

/-- An index of the output array is in point `t`'s block iff each coordinate is in the block's range on its axis. -/
theorem mem_block1 (t : Fin cfg1.N) (i : S50000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v48).slice (win1_2.rect t)).set ↔ _
  rw [View.set_slice_whole, Rect.mem_set_unit]
  exact Iff.rfl

/-- Row p lies in the block of point p / 2000: the 25 row blocks tile the array. -/
theorem cover1 (i : S50000x40.Idx) :
    ∃ t : Fin cfg1.N, (cfg1.win 2).flush t = true ∧ i ∈ ((cfg1.win 2).blk t).view.set := by
  have hi0 : (i 0).val < 50000 := (i 0).isLt
  have hi1 : (i 1).val < 40 := (i 1).isLt
  have ht : (i 0).val / 2000 < cfg1.N := by show _ < grid1.N; rw [N_1]; omega
  refine ⟨⟨(i 0).val / 2000, ht⟩, flush1_2 _, ?_⟩
  rw [mem_block1]
  obtain ⟨-, -, -, -, e4, e5⟩ := index_facts1 ⟨(i 0).val / 2000, ht⟩
  intro a
  match a with
  | ⟨0, _⟩ =>
    show win1_2.index ⟨(i 0).val / 2000, ht⟩ (0 : Fin 2) * 2000 ≤ (i 0).val ∧ (i 0).val < win1_2.index ⟨(i 0).val / 2000, ht⟩ (0 : Fin 2) * 2000 + 2000
    rw [e5]; show (i 0).val / 2000 * 2000 ≤ (i 0).val ∧ (i 0).val < (i 0).val / 2000 * 2000 + 2000; omega
  | ⟨1, _⟩ =>
    show win1_2.index ⟨(i 0).val / 2000, ht⟩ (1 : Fin 2) * 40 ≤ (i 1).val ∧ (i 1).val < win1_2.index ⟨(i 0).val / 2000, ht⟩ (1 : Fin 2) * 40 + 40
    rw [e4]; omega

/-- The output array after the region: the whole product. -/
theorem array1 (c : Dev nD) : (dat1 V c).arrAt 2 cfg1.N = whole1 V c :=
  (dat1 V c).arrAt_eq_of_cover 2 (whole1 V c) (fun t _ => flushed1 V c t) (cover1)

end Region1

end Cert.KernelIdeal.Products

end
-- ==== Proof.KernelValue.lean ====
/-
  What the idealized kernel's result buffer holds after the run: the network of Spec.lean of the launch arrays.

  The run's last boundary contents `W8` is a fold of eight segments over the launch memory. It is read here from the
  end backwards, at the few buffers the result depends on:
    * the first three host stretches compute, from the edge list alone, the edges' sources and targets and the edge
      weights (`entry0_*`), and touch no argument; the middle one is the call of `_where` that picks deg^(-1/2) or 0;
    * the first region leaves X · W1 in its output array (RegionProducts.lean), which at the ideal values is the host's
      `dot_general` of the same arrays, and leaves every other buffer as it found it (`exit0_*`);
    * the next two stretches aggregate, add the bias and apply relu: the hidden layer (`entry1_*`);
    * the second region leaves H · W2 (`exit1_*`);
    * the last stretch aggregates once more and adds the second bias: the network (`result_eq`).
  Each host stretch is evaluated operation by operation to a pure term over the previous boundary's contents, the
  contents are replaced by the values already established, and the term is then the specification's by unfolding.
  The two called functions (`_where`, `relu`) move contents in and out of their buffers along "the buffer's type is the
  value's type"; their stretches are therefore evaluated once over ARBITRARY contents of the buffers they read, where
  those moves act on variables and vanish by computation, and only then applied to the boundary at hand.
-/
import proofs.«108142_j39977555591218_1_alg».proof.Proof.Gen.KernelIdeal.Frame
import proofs.«108142_j39977555591218_1_alg».proof.Proof.Spec
import proofs.«108142_j39977555591218_1_alg».proof.Proof.RegionProducts
import proofs.«108142_j39977555591218_1_alg».proof.Proof.LibPlainProduct
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

/-- Evaluates `after ops W b` for a literal stretch `ops`: every operation's result at its own buffer is its function
    of its operands' contents, and any other buffer keeps its contents — also inside the shape–array pairs a
    `concatenate` takes, where the one-pass form does not reach. -/
local macro "host_values" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The stretches that cross a called function, and the one between them, over any contents `X` of what they read -/

/-- The `_where` call: the selection of its second operand where its first holds, of its (broadcast) third elsewhere. -/
theorem where_result (X : Valuation τ sig (Elt Ideal)) :
    StableHlo.after hostOps0_1 X (Proc.devRef .tc main_v14)
      = select (X (Proc.devRef .tc main_v12) : (⟨S50000, .i1⟩ : BufTy).Contents (Elt Ideal))
          (X (Proc.devRef .tc main_v13) : (⟨S50000, .f32⟩ : BufTy).Contents (Elt Ideal))
          (broadcastInDim S50000 ![] bcast_S_S50000 (id (X (Proc.devRef .tc main_cst_2) : (⟨S_, .f32⟩ : BufTy).Contents (Elt Ideal)))) := by
  host_values <;> rfl

/-- The `relu` call: the maximum with zero. -/
theorem relu_result (X : Valuation τ sig (Elt Ideal)) :
    StableHlo.after hostOps1_1 X (Proc.devRef .tc main_v47)
      = maximumf (X (Proc.devRef .tc main_v46) : (⟨S50000x96, .f32⟩ : BufTy).Contents (Elt Ideal))
          (broadcastInDim S50000x96 ![] bcast_S_S50000x96 (constant (F := Ideal) S_ .f32 0x00000000#32)) := by
  host_values <;> rfl

/-- The stretch after `_where`: the edge weights from deg^(-1/2) (buffer 14), the sources (3) and the targets (6). -/
theorem weights_result (X : Valuation τ sig (Elt Ideal)) :
    StableHlo.after hostOps0_2 X (Proc.devRef .tc main_v29)
      = Cert.Gcn.weightsOf (F := Ideal) (X (Proc.devRef .tc main_v14)) (X (Proc.devRef .tc main_v3)) (X (Proc.devRef .tc main_v6)) := by
  host_values <;> rfl

/-! ## After the first stretch -/

theorem first_positive (c : Dev nD) :
    W1 m ρ c (Proc.devRef .tc main_v12)
      = Cert.Gcn.positiveDegree (F := Ideal) (m ((c : Thread nD τ).loc main_arg1)) := by
  show StableHlo.after hostOps0 (W0 m ρ c) (Proc.devRef .tc main_v12) = _
  host_values <;> rfl

theorem first_rsqrt (c : Dev nD) :
    W1 m ρ c (Proc.devRef .tc main_v13) = Cert.Gcn.rsqrtDegree (F := Ideal) (m ((c : Thread nD τ).loc main_arg1)) := by
  show StableHlo.after hostOps0 (W0 m ρ c) (Proc.devRef .tc main_v13) = _
  host_values <;> rfl

theorem first_zero (c : Dev nD) :
    W1 m ρ c (Proc.devRef .tc main_cst_2) = Cert.Gcn.zeroScalar (F := Ideal) := by
  show StableHlo.after hostOps0 (W0 m ρ c) (Proc.devRef .tc main_cst_2) = _
  host_values <;> rfl

/-! ## After the `_where` call -/

theorem second_invSqrtDegree (c : Dev nD) :
    W2 m ρ c (Proc.devRef .tc main_v14) = Cert.Gcn.invSqrtDegree (F := Ideal) (m ((c : Thread nD τ).loc main_arg1)) := by
  show StableHlo.after hostOps0_1 (W1 m ρ c) (Proc.devRef .tc main_v14) = _
  rw [where_result, first_positive, first_rsqrt, first_zero]
  rfl

theorem second_sources (c : Dev nD) :
    W2 m ρ c (Proc.devRef .tc main_v3) = Cert.Gcn.sources (F := Ideal) (m ((c : Thread nD τ).loc main_arg1)) := by
  show StableHlo.after hostOps0_1 (StableHlo.after hostOps0 (W0 m ρ c)) (Proc.devRef .tc main_v3) = _
  host_values <;> rfl

theorem second_targets (c : Dev nD) :
    W2 m ρ c (Proc.devRef .tc main_v6) = Cert.Gcn.targets (F := Ideal) (m ((c : Thread nD τ).loc main_arg1)) := by
  show StableHlo.after hostOps0_1 (StableHlo.after hostOps0 (W0 m ρ c)) (Proc.devRef .tc main_v6) = _
  host_values <;> rfl

/-! ## Entering the first region -/

theorem entry0_sources (c : Dev nD) :
    W3 m ρ c (Proc.devRef .tc main_v3) = Cert.Gcn.sources (F := Ideal) (m ((c : Thread nD τ).loc main_arg1)) := by
  show StableHlo.after hostOps0_2 (StableHlo.after hostOps0_1 (StableHlo.after hostOps0 (W0 m ρ c))) (Proc.devRef .tc main_v3) = _
  host_values <;> rfl

theorem entry0_targets (c : Dev nD) :
    W3 m ρ c (Proc.devRef .tc main_v6) = Cert.Gcn.targets (F := Ideal) (m ((c : Thread nD τ).loc main_arg1)) := by
  show StableHlo.after hostOps0_2 (StableHlo.after hostOps0_1 (StableHlo.after hostOps0 (W0 m ρ c))) (Proc.devRef .tc main_v6) = _
  host_values <;> rfl

theorem entry0_weight (c : Dev nD) :
    W3 m ρ c (Proc.devRef .tc main_v29) = Cert.Gcn.edgeWeight (F := Ideal) (m ((c : Thread nD τ).loc main_arg1)) := by
  show StableHlo.after hostOps0_2 (W2 m ρ c) (Proc.devRef .tc main_v29) = _
  rw [weights_result, second_invSqrtDegree, second_sources, second_targets]
  rfl

theorem entry0_x (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  host_values <;> rfl

theorem entry0_w1 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  host_values <;> rfl

theorem entry0_b1 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  host_values <;> rfl

theorem entry0_w2 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  host_values <;> rfl

theorem entry0_b2 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  host_values <;> rfl

/-! ## Leaving the first region: its output array is X · W1, every other buffer is as it was -/

theorem exit0_product (c : Dev nD) :
    W4 m ρ c (Proc.devRef .tc main_v30)
      = Cert.Gcn.product1 (F := Ideal)
          (m ((c : Thread nD τ).loc main_arg0)) (m ((c : Thread nD τ).loc main_arg2)) := by
  refine (W4_arr m ρ c 2).trans ((Products.array0 (V3 m ρ) c).trans ?_)
  unfold Products.whole0
  rw [entry0_x, entry0_w1]
  exact (dotGeneral_plain_eq 50000 1024 96 none _ _).symm

theorem exit0_sources (c : Dev nD) :
    W4 m ρ c (Proc.devRef .tc main_v3) = Cert.Gcn.sources (F := Ideal) (m ((c : Thread nD τ).loc main_arg1)) :=
  (W4_of_ne m ρ c main_v3 (by decide)).trans (entry0_sources m ρ c)
theorem exit0_targets (c : Dev nD) :
    W4 m ρ c (Proc.devRef .tc main_v6) = Cert.Gcn.targets (F := Ideal) (m ((c : Thread nD τ).loc main_arg1)) :=
  (W4_of_ne m ρ c main_v6 (by decide)).trans (entry0_targets m ρ c)
theorem exit0_weight (c : Dev nD) :
    W4 m ρ c (Proc.devRef .tc main_v29) = Cert.Gcn.edgeWeight (F := Ideal) (m ((c : Thread nD τ).loc main_arg1)) :=
  (W4_of_ne m ρ c main_v29 (by decide)).trans (entry0_weight m ρ c)
theorem exit0_b1 (c : Dev nD) : W4 m ρ c (Proc.devRef .tc main_arg3) = m ((c : Thread nD τ).loc main_arg3) :=
  (W4_of_ne m ρ c main_arg3 (by decide)).trans (entry0_b1 m ρ c)
theorem exit0_w2 (c : Dev nD) : W4 m ρ c (Proc.devRef .tc main_arg4) = m ((c : Thread nD τ).loc main_arg4) :=
  (W4_of_ne m ρ c main_arg4 (by decide)).trans (entry0_w2 m ρ c)
theorem exit0_b2 (c : Dev nD) : W4 m ρ c (Proc.devRef .tc main_arg5) = m ((c : Thread nD τ).loc main_arg5) :=
  (W4_of_ne m ρ c main_arg5 (by decide)).trans (entry0_b2 m ρ c)

/-! ## Entering the second region: the hidden layer -/

/-- Before the relu: the first layer's aggregation of X · W1, with its bias. -/
theorem before_relu (c : Dev nD) :
    W5 m ρ c (Proc.devRef .tc main_v46)
      = Cert.Gcn.aggregate96 (F := Ideal) (m ((c : Thread nD τ).loc main_arg1))
          (Cert.Gcn.product1 (F := Ideal)
            (m ((c : Thread nD τ).loc main_arg0)) (m ((c : Thread nD τ).loc main_arg2)))
          (m ((c : Thread nD τ).loc main_arg3)) := by
  show StableHlo.after hostOps1 (W4 m ρ c) (Proc.devRef .tc main_v46) = _
  host_values
  rw [exit0_product, exit0_sources, exit0_targets, exit0_weight, exit0_b1]
  rfl

theorem entry1_hidden (c : Dev nD) :
    V6 m ρ c main_v47 = Cert.Gcn.hidden (F := Ideal) (m ((c : Thread nD τ).loc main_arg0)) (m ((c : Thread nD τ).loc main_arg1))
      (m ((c : Thread nD τ).loc main_arg2)) (m ((c : Thread nD τ).loc main_arg3)) := by
  show StableHlo.after hostOps1_1 (W5 m ρ c) (Proc.devRef .tc main_v47) = _
  rw [relu_result, before_relu]
  rfl

theorem entry1_w2 (c : Dev nD) : V6 m ρ c main_arg4 = m ((c : Thread nD τ).loc main_arg4) := by
  show StableHlo.after hostOps1_1 (StableHlo.after hostOps1 (W4 m ρ c)) (Proc.devRef .tc main_arg4) = _
  host_values
  exact exit0_w2 m ρ c

theorem entry1_sources (c : Dev nD) :
    W6 m ρ c (Proc.devRef .tc main_v3) = Cert.Gcn.sources (F := Ideal) (m ((c : Thread nD τ).loc main_arg1)) := by
  show StableHlo.after hostOps1_1 (StableHlo.after hostOps1 (W4 m ρ c)) (Proc.devRef .tc main_v3) = _
  host_values
  exact exit0_sources m ρ c
theorem entry1_targets (c : Dev nD) :
    W6 m ρ c (Proc.devRef .tc main_v6) = Cert.Gcn.targets (F := Ideal) (m ((c : Thread nD τ).loc main_arg1)) := by
  show StableHlo.after hostOps1_1 (StableHlo.after hostOps1 (W4 m ρ c)) (Proc.devRef .tc main_v6) = _
  host_values
  exact exit0_targets m ρ c
theorem entry1_weight (c : Dev nD) :
    W6 m ρ c (Proc.devRef .tc main_v29) = Cert.Gcn.edgeWeight (F := Ideal) (m ((c : Thread nD τ).loc main_arg1)) := by
  show StableHlo.after hostOps1_1 (StableHlo.after hostOps1 (W4 m ρ c)) (Proc.devRef .tc main_v29) = _
  host_values
  exact exit0_weight m ρ c
theorem entry1_b2 (c : Dev nD) : W6 m ρ c (Proc.devRef .tc main_arg5) = m ((c : Thread nD τ).loc main_arg5) := by
  show StableHlo.after hostOps1_1 (StableHlo.after hostOps1 (W4 m ρ c)) (Proc.devRef .tc main_arg5) = _
  host_values
  exact exit0_b2 m ρ c

/-! ## Leaving the second region: its output array is H · W2 -/

theorem exit1_product (c : Dev nD) :
    W7 m ρ c (Proc.devRef .tc main_v48)
      = Cert.Gcn.product2 (F := Ideal)
          (Cert.Gcn.hidden (F := Ideal) (m ((c : Thread nD τ).loc main_arg0)) (m ((c : Thread nD τ).loc main_arg1))
            (m ((c : Thread nD τ).loc main_arg2)) (m ((c : Thread nD τ).loc main_arg3)))
          (m ((c : Thread nD τ).loc main_arg4)) := by
  refine (W7_arr m ρ c 2).trans ((Products.array1 (V6 m ρ) c).trans ?_)
  unfold Products.whole1
  rw [entry1_hidden, entry1_w2]
  exact (dotGeneral_plain_eq 50000 96 40 none _ _).symm

theorem exit1_sources (c : Dev nD) :
    W7 m ρ c (Proc.devRef .tc main_v3) = Cert.Gcn.sources (F := Ideal) (m ((c : Thread nD τ).loc main_arg1)) :=
  (W7_of_ne m ρ c main_v3 (by decide)).trans (entry1_sources m ρ c)
theorem exit1_targets (c : Dev nD) :
    W7 m ρ c (Proc.devRef .tc main_v6) = Cert.Gcn.targets (F := Ideal) (m ((c : Thread nD τ).loc main_arg1)) :=
  (W7_of_ne m ρ c main_v6 (by decide)).trans (entry1_targets m ρ c)
theorem exit1_weight (c : Dev nD) :
    W7 m ρ c (Proc.devRef .tc main_v29) = Cert.Gcn.edgeWeight (F := Ideal) (m ((c : Thread nD τ).loc main_arg1)) :=
  (W7_of_ne m ρ c main_v29 (by decide)).trans (entry1_weight m ρ c)
theorem exit1_b2 (c : Dev nD) : W7 m ρ c (Proc.devRef .tc main_arg5) = m ((c : Thread nD τ).loc main_arg5) :=
  (W7_of_ne m ρ c main_arg5 (by decide)).trans (entry1_b2 m ρ c)

/-! ## The result -/

/-- After the last stretch the result buffer holds the network of the launch arrays. -/
theorem result_eq (c : Dev nD) :
    W8 m ρ c (Proc.devRef .tc main_v64)
      = Cert.Gcn.network (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  show StableHlo.after hostOps2 (W7 m ρ c) (Proc.devRef .tc main_v64) = _
  host_values
  rw [exit1_product, exit1_sources, exit1_targets, exit1_weight, exit1_b2]
  rfl

end Cert.KernelIdeal.Whole

end
-- ==== Proof.RefValue.lean ====
/-
  The reference's result is the network of Spec.lean of its launch arrays.

  The reference's run ends with its result buffer at the composed term of its 116 host operations. That term spells
  the same lines as the specification — the edge endpoints, the degree count, the inverse square roots, the edge
  weights, a gather, a product and a scatter-add per layer, the biases, the relu — around the two `dot_general`
  products, and computes the degree and the edge weights once per layer where the specification names them once. So
  the two are one term after unfolding the specification's definitions.
-/
import proofs.«108142_j39977555591218_1_alg».proof.Proof.RefRunPatched
import proofs.«108142_j39977555591218_1_alg».proof.Proof.Spec
import Idealize.ShloMosaic.PureOps.Ideal

set_option maxRecDepth 65536

noncomputable section

namespace Cert.ReferenceIdeal.RefValue

open Cert.ReferenceIdeal Cert.ReferenceIdeal.Gen Cert.ReferenceIdeal.ValueP
open Idealize.ShloMosaic Idealize.ShloMosaic.TcCoe Idealize.SL.Sem

theorem result_eq (m : (ℓ : Loc nD τ sig) → Buf (Elt Ideal) ℓ) (c : Dev nD) :
    res_main_v87 (F := Ideal) m c
      = Cert.Gcn.network (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v87
  rfl

end Cert.ReferenceIdeal.RefValue

end
-- ==== Proof.lean ====
/-
  A two-layer graph convolution, out = Â · relu(Â · X · W1 + b1) · W2 + b2 with Â the symmetrically normalised
  adjacency (self-loops included) of a 50000-node, 800000-edge graph given as an edge list: the kernel against its
  reference, over the extended reals.

  Both programs handle the graph with the same host operations — the edges' endpoints, the in-degrees by a
  scatter-add of ones, deg^(-1/2) (0 where the degree is not positive), the edge weights, and per layer a gather of
  the sources' features, a product with the weights, a scatter-add into the targets and the bias. They differ in the
  two dense products: the reference takes `dot_general` of the whole arrays; the kernel runs each product as a Pallas
  region over 25 blocks of 2000 rows, every block a matrix-unit product of its rows (cast to a narrower float format
  first) with the whole weight matrix, into a zero accumulator. On ideal values the format change is the identity, a
  block's product is the sum Σ_k L(p, k) · R(k, e) at its own rows, and the blocks tile the rows: each region's output
  array is the host's `dot_general` of the arrays the region was entered with (RegionProducts.lean, KernelValue.lean).
  Hence both programs end at one function of the six launch arrays, `Cert.Gcn.network` (Spec.lean): the kernel by its
  run read segment by segment (KernelRun.lean, KernelValue.lean), the reference by its run's composed term
  (RefRunPatched.lean, RefValue.lean). No law of the extended reals beyond rewriting equal terms is used, so the
  precondition is never opened.

  The three frames: the kernel's two are the generated frame certificates; the reference, a program of host
  operations only, has its run, whose post keeps the arguments. The ideal pass rewrote nothing, so `preserves` is
  trivial.
-/
import proofs.«108142_j39977555591218_1_alg».proof.Defs
import proofs.«108142_j39977555591218_1_alg».proof.Proof.Gen.Kernel
import proofs.«108142_j39977555591218_1_alg».proof.Proof.Gen.Kernel.Frame
import proofs.«108142_j39977555591218_1_alg».proof.Proof.Gen.KernelIdeal
import proofs.«108142_j39977555591218_1_alg».proof.Proof.Gen.KernelIdeal.Frame
import proofs.«108142_j39977555591218_1_alg».proof.Proof.Gen.ReferenceIdeal
import proofs.«108142_j39977555591218_1_alg».proof.Proof.Gen.Pre_finite_inputs
import proofs.«108142_j39977555591218_1_alg».proof.Proof.KernelRun
import proofs.«108142_j39977555591218_1_alg».proof.Proof.KernelValue
import proofs.«108142_j39977555591218_1_alg».proof.Proof.RefRunPatched
import proofs.«108142_j39977555591218_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with their result buffer at the network of the launch arrays, which agree. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.ValueP.run (F := Ideal) m' ρ')
    have hc := hagree c
    rw [Cert.ReferenceIdeal.RefValue.result_eq, hc.1, hc.2.1, hc.2.2.1, hc.2.2.2.1, hc.2.2.2.2.1, hc.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
